-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x640000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 32
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S1x640000, .i32⟩
  | .hbm, ⟨5, _⟩ => ⟨S640000, .i32⟩
  | .hbm, ⟨6, _⟩ => ⟨S1x640000, .i32⟩
  | .hbm, ⟨7, _⟩ => ⟨S640000, .i32⟩
  | .hbm, ⟨8, _⟩ => ⟨S_, .i32⟩
  | .hbm, ⟨9, _⟩ => ⟨S640000, .i32⟩
  | .hbm, ⟨10, _⟩ => ⟨S640000, .i1⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S640000, .i32⟩
  | .hbm, ⟨15, _⟩ => ⟨S640000x1, .i32⟩
  | .hbm, ⟨16, _⟩ => ⟨S640000x128, .f32⟩
  | .hbm, ⟨17, _⟩ => ⟨S_, .f32⟩
  | .hbm, ⟨18, _⟩ => ⟨S100000x128, .f32⟩
  | .hbm, ⟨19, _⟩ => ⟨S640000x1, .i32⟩
  | .hbm, ⟨20, _⟩ => ⟨S100000x128, .f32⟩
  | .hbm, ⟨21, _⟩ => ⟨S_, .f32⟩
  | .hbm, ⟨22, _⟩ => ⟨S640000, .f32⟩
  | .hbm, ⟨23, _⟩ => ⟨S_, .f32⟩
  | .hbm, ⟨24, _⟩ => ⟨S100000, .f32⟩
  | .hbm, ⟨25, _⟩ => ⟨S640000x1, .i32⟩
  | .hbm, ⟨26, _⟩ => ⟨S100000, .f32⟩
  | .hbm, ⟨27, _⟩ => ⟨S100000x1, .f32⟩
  | .hbm, ⟨28, _⟩ => ⟨S128x128, .f32⟩
  | .hbm, ⟨29, _⟩ => ⟨S128x128, .bf16⟩
  | .hbm, ⟨30, _⟩ => ⟨S1x128, .f32⟩
  | .hbm, ⟨31, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .bf16⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  transposes_S128x128_S128x128_1_0 : S128x128.Transposes [1, 0] S128x128
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 39
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S1x640000, .i32⟩
  | .hbm, ⟨5, _⟩ => ⟨S640000, .i32⟩
  | .hbm, ⟨6, _⟩ => ⟨S1x640000, .i32⟩
  | .hbm, ⟨7, _⟩ => ⟨S640000, .i32⟩
  | .hbm, ⟨8, _⟩ => ⟨S_, .i32⟩
  | .hbm, ⟨9, _⟩ => ⟨S640000, .i32⟩
  | .hbm, ⟨10, _⟩ => ⟨S640000, .i1⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S640000, .i32⟩
  | .hbm, ⟨15, _⟩ => ⟨S640000x1, .i32⟩
  | .hbm, ⟨16, _⟩ => ⟨S640000x128, .f32⟩
  | .hbm, ⟨17, _⟩ => ⟨S_, .f32⟩
  | .hbm, ⟨18, _⟩ => ⟨S100000x128, .f32⟩
  | .hbm, ⟨19, _⟩ => ⟨S640000x1, .i32⟩
  | .hbm, ⟨20, _⟩ => ⟨S100000x128, .f32⟩
  | .hbm, ⟨21, _⟩ => ⟨S_, .f32⟩
  | .hbm, ⟨22, _⟩ => ⟨S640000, .f32⟩
  | .hbm, ⟨23, _⟩ => ⟨S_, .f32⟩
  | .hbm, ⟨24, _⟩ => ⟨S100000, .f32⟩
  | .hbm, ⟨25, _⟩ => ⟨S640000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x128, .f32⟩
  | .hbm, ⟨32, _⟩ => ⟨S100000x128, .f32⟩
  | .hbm, ⟨33, _⟩ => ⟨S128x128, .f32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S100000x128, .f32⟩
  | .hbm, ⟨38, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x128_S128x128_S100000x128_1_0_0_1_n_n_wf : DotDims.WF S100000x128 S128x128 S100000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibMatmul.lean ====
/-
  A plain matrix product read at an index. For a product of an [m, k] by a [k, n] matrix that contracts the
  left operand's axis 1 with the right operand's axis 0 (no batch axes), the entry at (a, b) is the sum over c of
  A[a, c] · B[c, b] — both for the host's dot_general and for the in-kernel matmul into a zero accumulator, at the
  ideal values (extended reals, exact operations; a change of float format is the identity there).
-/
import Idealize.ShloMosaic.Lib.ValueIdx
import Idealize.ShloMosaic.PureOps.Ideal.Laws

namespace Cert.MatProd

open Idealize.ShloMosaic Idealize.ShloMosaic.ValueIdx

variable {m k n : ℕ}

/-- The operand indices of a plain product at output index (a, b) and contraction coordinate c are (a, c) and (c, b). -/
theorem lhsIdx_plain (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

theorem rhsIdx_plain (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- The host's dot_general of a plain product, at (a, b): Σ_c A[a, c] · B[c, b]. -/
theorem dotGeneral_apply {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b) = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_plain w a b c, rhsIdx_plain w a b c]

/-- The in-kernel matmul of a plain product into a zero accumulator, at (a, b): the same sum. -/
theorem matmul_zero_apply {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_plain w a b c, rhsIdx_plain w a b c]

end Cert.MatProd
-- ==== Proof.LibLayout.lean ====
/-
  Layout operations of small shapes read at an index built from coordinates: a column [a, 1] broadcast along the
  second axis, and a vector [a] cast to the column [a, 1].
-/
import Idealize.ShloMosaic.Lib.Pipeline.Value
import Idealize.ShloMosaic.Lib.ValueIdx

namespace Cert.Layout

open Idealize.ShloMosaic Idealize.ShloMosaic.ValueIdx

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(p, u)`, the vector at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Cert.Layout
-- ==== Proof.Layer.lean ====
/-
  The value both programs compute, at the ideal values (extended reals, exact operations).

  A graph layer over 100000 nodes with 128 features each. From the node features x and the edge list one first forms,
  for every node p, the sum agg[p, ·] of the features of the sources of the edges that end at p, and the number cnt[p]
  of such edges. The layer's result at node p, feature q, is then

      x[p, q] + ( Σ_k ( agg[p, k] / max(cnt[p], 1) ) · W[q, k]  +  b[q] ),

  the mean of the incoming features (an isolated node keeps the divisor 1), sent through the linear map with weight
  W (stored [out, in], so the contraction runs over W's second axis) and bias b, and added onto x. This module states
  that value as one function of the five arrays; agg and cnt enter as arrays in their own right, so nothing about how
  they were summed is needed here.
-/
import Idealize.ShloMosaic.PureOps.Ideal
import Idealize.ShloMosaic.Lib.ValueIdx

noncomputable section

namespace Cert.Layer

open Idealize.ShloMosaic Idealize.ShloMosaic.ValueIdx

/-- The divisor's floor: the float word of 1.0, kept as its word (both programs carry the same word). -/
abbrev floorOne : Ideal .f32 := Ideal.ofBits .f32 0x3F800000#32

/-- The mean of node p's incoming features, coordinate k: the sum divided by the edge count floored at one. -/
def mean (agg : FVec Ideal ⟨2, ![100000, 128]⟩ .f32) (cnt : FVec Ideal ⟨1, ![100000]⟩ .f32) (p : Fin 100000) (k : Fin 128) : EReal :=
  Ideal.div (agg (ix2 p k)) (max (cnt (ix1 p)) floorOne)

/-- The layer's result at node p, feature q. -/
def entry (x agg : FVec Ideal ⟨2, ![100000, 128]⟩ .f32) (cnt : FVec Ideal ⟨1, ![100000]⟩ .f32)
    (W : FVec Ideal ⟨2, ![128, 128]⟩ .f32) (b : FVec Ideal ⟨1, ![128]⟩ .f32) (p : Fin 100000) (q : Fin 128) : EReal :=
  x (ix2 p q) + ((∑ k : Fin 128, mean agg cnt p k * W (ix2 q k)) + b (ix1 q))

/-- The layer's result as one array. -/
def out (x agg : FVec Ideal ⟨2, ![100000, 128]⟩ .f32) (cnt : FVec Ideal ⟨1, ![100000]⟩ .f32)
    (W : FVec Ideal ⟨2, ![128, 128]⟩ .f32) (b : FVec Ideal ⟨1, ![128]⟩ .f32) : FVec Ideal ⟨2, ![100000, 128]⟩ .f32 :=
  fun i => entry x agg cnt W b (i 0) (i 1)

theorem out_apply (x agg : FVec Ideal ⟨2, ![100000, 128]⟩ .f32) (cnt : FVec Ideal ⟨1, ![100000]⟩ .f32)
    (W : FVec Ideal ⟨2, ![128, 128]⟩ .f32) (b : FVec Ideal ⟨1, ![128]⟩ .f32) (p : Fin 100000) (q : Fin 128) :
    out x agg cnt W b (ix2 p q) = entry x agg cnt W b p q := rfl

end Cert.Layer

end
-- ==== Proof.BodyValue.lean ====
/-
  What the kernel's body computes on one block of 5000 nodes, read at an index.

  The body loads the block's summed features (5000 × 128), its edge counts as a column (5000 × 1), the transposed
  weight (128 × 128, entry (k, q) holding W[q, k]), the bias as a row (1 × 128) and the block of x, and stores

      x + ( (summed / max(count, 1)) · weightᵀ  +  bias ),

  the count floored at one and repeated along the features, the quotient rounded to a shorter float format (the
  identity on exact values), the product accumulated onto zeros, the bias row repeated along the nodes. At local
  row p and feature q this is x[p, q] + ( Σ_k (summed[p, k] / max(count[p, 0], 1)) · weightᵀ[k, q] + bias[0, q] ).
-/
import proofs.«165251_j14078902796421_1_alg».proof.Proof.Gen.KernelIdeal.Skeleton
import proofs.«165251_j14078902796421_1_alg».proof.Proof.LibMatmul
import proofs.«165251_j14078902796421_1_alg».proof.Proof.LibLayout
import proofs.«165251_j14078902796421_1_alg».proof.Proof.Layer
import Idealize.ShloMosaic.Lib.ValueLayout
import Idealize.ShloMosaic.Lib.Pipeline.Value

noncomputable section

namespace Cert.KernelLayer

open Idealize.ShloMosaic Idealize.ShloMosaic.ValueIdx
open Cert.KernelIdeal Cert.KernelIdeal.Gen

/-- The body's stored value at local row p, feature q. -/
theorem pay_apply (v0 : Vec Ideal S5000x128 .f32) (v2 : Vec Ideal S5000x1 .f32) (v9 : Vec Ideal S128x128 .bf16)
    (v12 : Vec Ideal S1x128 .f32) (v16 : Vec Ideal S5000x128 .f32) (p : Fin 5000) (q : Fin 128) :
    k0_pay1 (F := Ideal) v0 v2 v9 v12 v16 (ix2 p q)
      = v16 (ix2 p q) + ((∑ k : Fin 128, Ideal.div (v0 (ix2 p k)) (max (v2 (ix2 p (0 : Fin 1))) Cert.Layer.floorOne) * v9 (ix2 k q))
          + v12 (ix2 (0 : Fin 1) q)) := by
  unfold k0_pay1
  simp only [shapeCast_self]
  rw [addf_apply, addf_apply, broadcastTo_1b_ab_apply]
  refine congrArg (fun z => v16 (ix2 p q) + (z + v12 (ix2 (0 : Fin 1) q))) ?_
  refine (Cert.MatProd.matmul_zero_apply (φ₁ := .bf16) (φ₂ := .bf16) _ none _ _ p q).trans ?_
  refine Finset.sum_congr rfl fun k _ => ?_
  rw [truncf_apply, divf_apply, Cert.Layout.broadcastTo_a1_ab_apply, maximumf_apply, broadcast_apply]
  rfl

/-- One grid point's stored block is a block of the layer's value. If the five loaded blocks are the rows
    base … base + 4999 of x and of the summed features, the same rows of the edge counts (as a column), the whole
    transposed weight and the whole bias row, then the body's value at local index y is the layer's value at the
    array index i that y names: row base + y₀, feature y₁. -/
theorem point_value (X A : FVec Ideal S100000x128 .f32) (C : FVec Ideal S100000 .f32) (W : FVec Ideal S128x128 .f32)
    (B : FVec Ideal S128 .f32)
    (b0 b1 : Vec Ideal S5000x128 .f32) (b2 : Vec Ideal S5000x1 .f32) (b3 : Vec Ideal S128x128 .bf16) (b4 : Vec Ideal S1x128 .f32)
    (base : ℕ)
    (h0 : ∀ (y : S5000x128.Idx) (i : S100000x128.Idx), (i 0).val = base + (y 0).val → (i 1).val = (y 1).val → b0 y = X i)
    (h1 : ∀ (y : S5000x128.Idx) (i : S100000x128.Idx), (i 0).val = base + (y 0).val → (i 1).val = (y 1).val → b1 y = A i)
    (h2 : ∀ (y : S5000x1.Idx) (i : S100000.Idx), (i 0).val = base + (y 0).val → b2 y = C i)
    (h3 : ∀ (y i : S128x128.Idx), (i 0).val = (y 1).val → (i 1).val = (y 0).val → b3 y = W i)
    (h4 : ∀ (y : S1x128.Idx) (i : S128.Idx), (i 0).val = (y 1).val → b4 y = B i)
    (y : S5000x128.Idx) (i : S100000x128.Idx) (hi0 : (i 0).val = base + (y 0).val) (hi1 : (i 1).val = (y 1).val) :
    k0_pay1 (F := Ideal) b1 b2 b3 b4 b0 y = Cert.Layer.out X A C W B i := by
  obtain ⟨p, q, rfl⟩ : ∃ (p : Fin 5000) (q : Fin 128), y = ix2 p q := ⟨y 0, y 1, eq_ix2 y⟩
  obtain ⟨p', q', rfl⟩ : ∃ (p' : Fin 100000) (q' : Fin 128), i = ix2 p' q' := ⟨i 0, i 1, eq_ix2 i⟩
  have hq : q' = q := Fin.ext hi1
  have hp : p'.val = base + p.val := hi0
  rw [hq, pay_apply, Cert.Layer.out_apply]
  unfold Cert.Layer.entry Cert.Layer.mean
  rw [h0 (ix2 p q) (ix2 p' q) hp rfl, h4 (ix2 (0 : Fin 1) q) (ix1 q) rfl, h2 (ix2 p (0 : Fin 1)) (ix1 p') hp]
  refine congrArg (fun z => X (ix2 p' q) + (z + B (ix1 q))) (Finset.sum_congr rfl fun k _ => ?_)
  rw [h1 (ix2 p k) (ix2 p' k) hp rfl, h3 (ix2 k q) (ix2 q k) rfl rfl]

end Cert.KernelLayer

end
-- ==== Proof.Entry.lean ====
/-
  The arrays the kernel's launch finds, as functions of the program's arguments.

  Before the launch the program sums, per node, the features of the sources of its incoming edges (agg) and counts
  those edges (cnt), exactly as the reference does — the same operations on the same arguments, so the two arrays
  are the reference's own stages and are never opened. It then lays the counts out as a column, transposes the
  weight (and shortens its float format, the identity on exact values) and lays the bias out as a row. Read at an
  index: the column at (p, 0) is cnt[p], the transposed weight at (k, q) is W[q, k], the row at (0, q) is b[q].
-/
import proofs.«165251_j14078902796421_1_alg».proof.Proof.Gen.KernelIdeal.Frame
import proofs.«165251_j14078902796421_1_alg».proof.Proof.Gen.ReferenceIdeal.Read
import proofs.«165251_j14078902796421_1_alg».proof.Proof.LibLayout
import Idealize.ShloMosaic.Lib.ValueLayout
import Idealize.ShloMosaic.Lib.StableHlo.Run

noncomputable section

namespace Cert.KernelLayer

open Idealize.ShloMosaic Idealize.ShloMosaic.TcCoe Idealize.SL.Sem Idealize.ShloMosaic.ValueIdx
open Idealize.ShloMosaic.StableHlo
open Cert.KernelIdeal Cert.KernelIdeal.Gen

variable (m : (ℓ : Loc nD τ sig) → Buf (Elt Ideal) ℓ)

/-- The summed incoming features, as a function of the arguments x and the edge list. -/
def agg (c : Dev nD) : FVec Ideal S100000x128 .f32 :=
  Cert.ReferenceIdeal.Read.val_main_v13 (F := Ideal) (m ((c : Thread nD τ).loc main_arg0)) (m ((c : Thread nD τ).loc main_arg1))

/-- The incoming-edge counts, as a function of the edge list. -/
def cnt (c : Dev nD) : FVec Ideal S100000 .f32 :=
  Cert.ReferenceIdeal.Read.val_main_v17 (F := Ideal) (m ((c : Thread nD τ).loc main_arg1))

/-- The counts laid out as a column. -/
def cntCol (c : Dev nD) : FVec Ideal S100000x1 .f32 :=
  shapeCast S100000x1 (cnt m c) Facts₀.shapeCasts_S100000_S100000x1

/-- The weight transposed (and its float format shortened: the identity on exact values). -/
def weightT (c : Dev nD) : FVec Ideal S128x128 .bf16 :=
  truncf (F := Ideal) .bf16 (transpose S128x128 [1, 0] (m ((c : Thread nD τ).loc main_arg2) : S128x128.Idx → Ideal .f32)
    Facts₀.transposes_S128x128_S128x128_1_0) Facts₀.bitsLt_bf16_f32

/-- The bias laid out as a row. -/
def biasRow (c : Dev nD) : FVec Ideal S1x128 .f32 :=
  shapeCast S1x128 (m ((c : Thread nD τ).loc main_arg3)) Facts₀.shapeCasts_S128_S1x128

theorem agg_eq (c : Dev nD) : agg m c = Cert.ReferenceIdeal.Read.val_main_v13 (F := Ideal)
    (m ((c : Thread nD τ).loc main_arg0)) (m ((c : Thread nD τ).loc main_arg1)) := rfl

theorem cnt_eq (c : Dev nD) : cnt m c = Cert.ReferenceIdeal.Read.val_main_v17 (F := Ideal)
    (m ((c : Thread nD τ).loc main_arg1)) := rfl

/-- The launch finds the summed features in the array its second window stages. -/
theorem entry_agg (c : Dev nD) : (V m c main_v13 : S100000x128.Idx → EReal) = agg m c := by
  unfold agg; dsimp only [Gen.V, Gen.hostOps0]; after_results <;> rfl

/-- The launch finds the count column in the array its third window stages. -/
theorem entry_cnt (c : Dev nD) : (V m c main_v18 : S100000x1.Idx → EReal) = cntCol m c := by
  unfold cntCol cnt; dsimp only [Gen.V, Gen.hostOps0]; after_results <;> rfl

/-- The launch finds the transposed weight in the array its fourth window stages. -/
theorem entry_w (c : Dev nD) : (V m c main_v20 : S128x128.Idx → EReal) = weightT m c := by
  unfold weightT; dsimp only [Gen.V, Gen.hostOps0]; after_results <;> rfl

/-- The launch finds the bias row in the array its fifth window stages. -/
theorem entry_b (c : Dev nD) : (V m c main_v21 : S1x128.Idx → EReal) = biasRow m c := by
  unfold biasRow; dsimp only [Gen.V, Gen.hostOps0]; after_results <;> rfl

/-- No operation before the launch writes x. -/
theorem entry_x (c : Dev nD) : (V m c main_arg0 : S100000x128.Idx → EReal) = m ((c : Thread nD τ).loc main_arg0) :=
  V_main_arg0 m c

/-- The count column at an index whose row is p holds cnt[p]. -/
theorem cntCol_apply (c : Dev nD) (j : S100000x1.Idx) (k : S100000.Idx) (h : (k 0).val = (j 0).val) :
    cntCol m c j = cnt m c k := by
  obtain ⟨p, u, rfl⟩ : ∃ (p : Fin 100000) (u : Fin 1), j = ix2 p u := ⟨j 0, j 1, eq_ix2 j⟩
  obtain rfl : k = ix1 p := funext fun a => Fin.ext (by match a with | ⟨0, _⟩ => exact h)
  unfold cntCol
  exact Cert.Layout.shapeCast_a_a1_apply _ _ p u

/-- The transposed weight at (k, q) holds W[q, k]. -/
theorem weightT_apply (c : Dev nD) (j k : S128x128.Idx) (h0 : (k 0).val = (j 1).val) (h1 : (k 1).val = (j 0).val) :
    weightT m c j = (m ((c : Thread nD τ).loc main_arg2) : S128x128.Idx → EReal) k := by
  obtain ⟨a, b, rfl⟩ : ∃ (a b : Fin 128), j = ix2 a b := ⟨j 0, j 1, eq_ix2 j⟩
  obtain rfl : k = ix2 b a := funext fun d => Fin.ext (by match d with | ⟨0, _⟩ => exact h0 | ⟨1, _⟩ => exact h1)
  unfold weightT
  rw [truncf_apply]
  exact transpose_ix2_apply _ _ a b

/-- The bias row at (0, q) holds b[q]. -/
theorem biasRow_apply (c : Dev nD) (j : S1x128.Idx) (k : S128.Idx) (h : (k 0).val = (j 1).val) :
    biasRow m c j = (m ((c : Thread nD τ).loc main_arg3) : S128.Idx → EReal) k := by
  obtain ⟨u, q, rfl⟩ : ∃ (u : Fin 1) (q : Fin 128), j = ix2 u q := ⟨j 0, j 1, eq_ix2 j⟩
  obtain rfl : k = ix1 q := funext fun a => Fin.ext (by match a with | ⟨0, _⟩ => exact h)
  unfold biasRow
  exact shapeCast_a_1a_apply _ _ u q

-- From here on the five arrays are names: nothing below looks inside them.
attribute [irreducible] agg cnt cntCol weightT biasRow

end Cert.KernelLayer

end
-- ==== Proof.Blocks.lean ====
/-
  From the grid's blocks to the whole result array.

  The launch runs 20 grid points; point t stages rows 5000·t … 5000·t + 4999 of x, of the summed features and of the
  edge-count column, the whole transposed weight and the whole bias row, and writes back rows 5000·t … of the result.
  What point t writes back is therefore block t of the layer's value (the body's value, index by index), the 20 row
  blocks cover every row below 100000, and so the result array after the run is the layer's value.
-/
import proofs.«165251_j14078902796421_1_alg».proof.Proof.Gen.KernelIdeal.Value
import proofs.«165251_j14078902796421_1_alg».proof.Proof.BodyValue
import proofs.«165251_j14078902796421_1_alg».proof.Proof.Entry

noncomputable section

namespace Cert.KernelLayer

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The layer's value of the program's arguments: x, the summed features and edge counts formed from x and the
    edge list, the weight and the bias. -/
abbrev result (c : Dev nD) : FVec Ideal S100000x128 .f32 :=
  Cert.Layer.out (m ((c : Thread nD τ).loc main_arg0)) (agg m c) (cnt m c)
    (m ((c : Thread nD τ).loc main_arg2)) (m ((c : Thread nD τ).loc main_arg3))

theorem hz : (![0, 0] : Fin 2 → Nat) = fun _ => 0 := funext fun a => by fin_cases a <;> rfl

/-- Which block each window stages at point t, decided over the 20 points: the three row-blocked inputs and the
    output move together, block row t, block column 0; the weight and the bias stay at block (0, 0). -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = win0_5.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) = t.val :=
  (by decide +kernel : ∀ t : Fin grid0.N, _)

/-- Each input window's block at point t, read off the array the launch finds there. -/
theorem iblk_x (c : Dev nD) (t : Fin cfg0.N) :
    iblk m c 0 t = ((cfg0.win 0).blk t).view.read (Elt Ideal) (m ((c : Thread nD τ).loc main_arg0)) := by
  unfold iblk
  rw [show V m c (Pipeline.arrRef spec0 0) = m ((c : Thread nD τ).loc main_arg0) from entry_x m c]

theorem iblk_agg (c : Dev nD) (t : Fin cfg0.N) :
    iblk m c 1 t = ((cfg0.win 1).blk t).view.read (Elt Ideal) (agg m c) := by
  unfold iblk
  rw [show V m c (Pipeline.arrRef spec0 1) = agg m c from entry_agg m c]

theorem iblk_cnt (c : Dev nD) (t : Fin cfg0.N) :
    iblk m c 2 t = ((cfg0.win 2).blk t).view.read (Elt Ideal) (cntCol m c) := by
  unfold iblk
  rw [show V m c (Pipeline.arrRef spec0 2) = cntCol m c from entry_cnt m c]

theorem iblk_w (c : Dev nD) (t : Fin cfg0.N) :
    iblk m c 3 t = ((cfg0.win 3).blk t).view.read (Elt Ideal) (weightT m c) := by
  unfold iblk
  rw [show V m c (Pipeline.arrRef spec0 3) = weightT m c from entry_w m c]

theorem iblk_b (c : Dev nD) (t : Fin cfg0.N) :
    iblk m c 4 t = ((cfg0.win 4).blk t).view.read (Elt Ideal) (biasRow m c) := by
  unfold iblk
  rw [show V m c (Pipeline.arrRef spec0 4) = biasRow m c from entry_b m c]

/-- Reading any array through a window's block at point t, at local index y, reads the array at the index the
    block places y at. Stated for an arbitrary array, so that the arrays above enter only by name. -/
theorem read_x (t : Fin cfg0.N) (f : S100000x128.Idx → EReal) (y : S5000x128.Idx) :
    ((cfg0.win 0).blk t).view.read (Elt Ideal) f y = f (((cfg0.win 0).blk t).view.emb y) := rfl

theorem read_agg (t : Fin cfg0.N) (f : S100000x128.Idx → EReal) (y : S5000x128.Idx) :
    ((cfg0.win 1).blk t).view.read (Elt Ideal) f y = f (((cfg0.win 1).blk t).view.emb y) := rfl

theorem read_cnt (t : Fin cfg0.N) (f : S100000x1.Idx → EReal) (y : S5000x1.Idx) :
    ((cfg0.win 2).blk t).view.read (Elt Ideal) f y = f (((cfg0.win 2).blk t).view.emb y) := rfl

theorem read_w (t : Fin cfg0.N) (f : S128x128.Idx → EReal) (y : S128x128.Idx) :
    ((cfg0.win 3).blk t).view.read (Elt Ideal) f y = f (((cfg0.win 3).blk t).view.emb y) := rfl

theorem read_b (t : Fin cfg0.N) (f : S1x128.Idx → EReal) (y : S1x128.Idx) :
    ((cfg0.win 4).blk t).view.read (Elt Ideal) f y = f (((cfg0.win 4).blk t).view.emb y) := rfl

/-- What point t writes back is block t of the layer's value. -/
theorem flushed_eq (c : Dev nD) (t : Fin cfg0.N) :
    (dats m 0 c).flushed 5 t = ((cfg0.win 5).blk t).view.read (Elt Ideal) (result m c) := by
  rw [Cert.KernelIdeal.Value.flushed5]
  unfold out0_5
  rw [View.canon_unit_zero hz]
  simp only [View.ld_unit_zero (S := S5000x128) hz, View.ld_unit_zero (S := S5000x1) hz,
    View.ld_unit_zero (S := S128x128) hz, View.ld_unit_zero (S := S1x128) hz]
  obtain ⟨e00, e01, e10, e11, e20, e21, e30, e31, e40, e41, e51, e50⟩ := idx_facts t
  funext j
  show k0_pay1 (F := Ideal) (iblk m c 1 t) (iblk m c 2 t) (iblk m c 3 t) (iblk m c 4 t) (iblk m c 0 t) j
    = result m c (((cfg0.win 5).blk t).view.emb j)
  refine point_value (m ((c : Thread nD τ).loc main_arg0)) (agg m c) (cnt m c)
    (m ((c : Thread nD τ).loc main_arg2)) (m ((c : Thread nD τ).loc main_arg3))
    (iblk m c 0 t) (iblk m c 1 t) (iblk m c 2 t) (iblk m c 3 t) (iblk m c 4 t)
    (win0_5.index t (0 : Fin 2) * 5000) ?_ ?_ ?_ ?_ ?_ j (((cfg0.win 5).blk t).view.emb j) ?_ ?_
  · intro y i hi0 hi1
    rw [iblk_x, read_x]
    refine congrArg (m ((c : Thread nD τ).loc main_arg0) : S100000x128.Idx → EReal) (funext fun a => Fin.ext ?_)
    match a with
    | ⟨0, _⟩ => show win0_0.index t (0 : Fin 2) * 5000 + 1 * (y 0).val = (i 0).val; omega
    | ⟨1, _⟩ => show win0_0.index t (1 : Fin 2) * 128 + 1 * (y 1).val = (i 1).val; omega
  · intro y i hi0 hi1
    rw [iblk_agg, read_agg]
    refine congrArg (agg m c) (funext fun a => Fin.ext ?_)
    match a with
    | ⟨0, _⟩ => show win0_1.index t (0 : Fin 2) * 5000 + 1 * (y 0).val = (i 0).val; omega
    | ⟨1, _⟩ => show win0_1.index t (1 : Fin 2) * 128 + 1 * (y 1).val = (i 1).val; omega
  · intro y i hi0
    rw [iblk_cnt, read_cnt]
    refine cntCol_apply m c (((cfg0.win 2).blk t).view.emb y) i ?_
    show (i 0).val = win0_2.index t (0 : Fin 2) * 5000 + 1 * (y 0).val
    omega
  · intro y i hi0 hi1
    rw [iblk_w, read_w]
    refine weightT_apply m c (((cfg0.win 3).blk t).view.emb y) i ?_ ?_
    · show (i 0).val = win0_3.index t (1 : Fin 2) * 128 + 1 * (y 1).val
      omega
    · show (i 1).val = win0_3.index t (0 : Fin 2) * 128 + 1 * (y 0).val
      omega
  · intro y i hi0
    rw [iblk_b, read_b]
    refine biasRow_apply m c (((cfg0.win 4).blk t).view.emb y) i ?_
    show (i 0).val = win0_4.index t (1 : Fin 2) * 128 + 1 * (y 1).val
    omega
  · show win0_5.index t (0 : Fin 2) * 5000 + 1 * (j 0).val = win0_5.index t (0 : Fin 2) * 5000 + (j 0).val
    omega
  · show win0_5.index t (1 : Fin 2) * 128 + 1 * (j 1).val = (j 1).val
    omega

/-- An index of the result array lies in point t's block iff each coordinate lies in the block's range. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v22).slice (win0_5.rect t)).set ↔ _
  rw [View.set_slice_whole, Rect.mem_set_unit]
  exact Iff.rfl

/-- Every index of the result array is in some point's block: row r is written by point r / 5000. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  have ht : (i 0).val / 5000 < cfg0.N := by omega
  obtain ⟨e00, e01, e10, e11, e20, e21, e30, e31, e40, e41, e51, e50⟩ := idx_facts ⟨(i 0).val / 5000, ht⟩
  have e50' : win0_5.index ⟨(i 0).val / 5000, ht⟩ (0 : Fin 2) = (i 0).val / 5000 := e50
  refine ⟨⟨(i 0).val / 5000, ht⟩, flush0_5 _, ?_⟩
  rw [mem_blk]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    omega
  | ⟨1, _⟩ =>
    show win0_5.index ⟨(i 0).val / 5000, ht⟩ (1 : Fin 2) * 128 ≤ (i 1).val
      ∧ (i 1).val < win0_5.index ⟨(i 0).val / 5000, ht⟩ (1 : Fin 2) * 128 + 128
    omega

/-- The result array after the run is the layer's value. -/
theorem final (c : Dev nD) : (dats m 0 c).arrAt 5 cfg0.N = result m c :=
  (dats m 0 c).arrAt_eq_of_cover 5 (result m c) (fun t _ => flushed_eq m c t) cover

/-- The kernel program's run: it terminates with the result array at the layer's value and the arguments unchanged. -/
theorem run : θ_run defs (onTc (τ := τ) (main (F := Ideal))) ⟨m, fun _ => 0, ρ⟩ fun r => ∀ c : Dev nD,
      r.2.mem ((c : Thread nD τ).loc main_v22) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelLayer

end
-- ==== Proof.RefValue.lean ====
/-
  The reference program's result is the layer's value.

  Read one operation at a time, the reference divides the summed features agg by the edge count floored at one
  (the count first laid out as a column and repeated along the features), multiplies the quotient with the
  transposed weight (entry (k, q) of the transpose is W[q, k]), adds the bias repeated along the nodes, and adds x.
  At an index (p, q) that is exactly the layer's entry; the two arrays agg and cnt are the reference's own
  intermediate stages and stay unopened.
-/
import proofs.«165251_j14078902796421_1_alg».proof.Proof.Gen.ReferenceIdeal.Read
import proofs.«165251_j14078902796421_1_alg».proof.Proof.Layer

noncomputable section

namespace Cert.RefLayer

open Idealize.ShloMosaic Idealize.ShloMosaic.ValueIdx
open Cert.ReferenceIdeal Cert.ReferenceIdeal.Read

theorem lidx_eq (p : Fin 100000) (q k : Fin 128) : lidx_main_v24 (ix2 p q) k = ix2 p k :=
  funext fun a => Fin.ext (by match a with | ⟨0, _⟩ => rfl | ⟨1, _⟩ => rfl)

theorem ridx_eq (p : Fin 100000) (q k : Fin 128) : ridx_main_v24 (ix2 p q) k = ix2 k q :=
  funext fun a => Fin.ext (by match a with | ⟨0, _⟩ => rfl | ⟨1, _⟩ => rfl)

theorem idx23_eq (k q : Fin 128) : idx_main_v23 (ix2 k q) = ix2 q k :=
  funext fun a => Fin.ext (by match a with | ⟨0, _⟩ => rfl | ⟨1, _⟩ => rfl)

theorem idx21_eq (p : Fin 100000) (k : Fin 128) : idx_main_v21 (ix2 p k) = ix2 p (0 : Fin 1) :=
  funext fun a => Fin.ext (by match a with | ⟨0, _⟩ => rfl | ⟨1, _⟩ => rfl)

theorem idx20_eq (p : Fin 100000) (u : Fin 1) : idx_main_v20 (ix2 p u) = ix1 p :=
  funext fun a => Fin.ext (by match a with | ⟨0, _⟩ => rfl)

theorem idx26_eq (p : Fin 100000) (q : Fin 128) : idx_main_v26 (ix2 p q) = ix2 (0 : Fin 1) q :=
  funext fun a => Fin.ext (by match a with | ⟨0, _⟩ => rfl | ⟨1, _⟩ => rfl)

theorem idx25_eq (u : Fin 1) (q : Fin 128) : idx_main_v25 (ix2 u q) = ix1 q :=
  funext fun a => Fin.ext (by match a with | ⟨0, _⟩ => rfl)

/-- The reference's divisor at (p, k): node p's edge count floored at one. -/
theorem divisor_apply (x1 : (⟨S2x640000, .i32⟩ : BufTy).Contents (Elt Ideal)) (p : Fin 100000) (k : Fin 128) :
    val_main_v21 (F := Ideal) x1 (ix2 p k) = max (val_main_v17 (F := Ideal) x1 (ix1 p)) Cert.Layer.floorOne := by
  rw [val_main_v21_apply, idx21_eq, val_main_v20_apply, idx20_eq, val_main_v19_apply, val_main_v18_apply,
    val_main_cst_3_apply]
  rfl

/-- The reference's result array is the layer's value of x, its own summed features and edge counts, W and b. -/
theorem result_eq (x0 : (⟨S100000x128, .f32⟩ : BufTy).Contents (Elt Ideal)) (x1 : (⟨S2x640000, .i32⟩ : BufTy).Contents (Elt Ideal))
    (x2 : (⟨S128x128, .f32⟩ : BufTy).Contents (Elt Ideal)) (x3 : (⟨S128, .f32⟩ : BufTy).Contents (Elt Ideal)) :
    val_main_v28 (F := Ideal) x0 x1 x2 x3
      = Cert.Layer.out x0 (val_main_v13 (F := Ideal) x0 x1) (val_main_v17 (F := Ideal) x1) x2 x3 := by
  funext i
  obtain ⟨p, q, rfl⟩ : ∃ (p : Fin 100000) (q : Fin 128), i = ix2 p q := ⟨i 0, i 1, eq_ix2 i⟩
  rw [Cert.Layer.out_apply, val_main_v28_apply, val_main_v27_apply, val_main_v24_apply, val_main_v26_apply, idx26_eq,
    val_main_v25_apply, idx25_eq]
  unfold Cert.Layer.entry Cert.Layer.mean
  refine congrArg (fun z => x0 (ix2 p q) + (z + x3 (ix1 q))) (Finset.sum_congr rfl fun k _ => ?_)
  rw [lidx_eq, ridx_eq, val_main_v22_apply, divisor_apply, val_main_v23_apply, idx23_eq, Ideal.hostDivf_def]

end Cert.RefLayer

end
-- ==== Proof.lean ====
/-
  The certificate of a graph layer: mean aggregation over incoming edges, a linear map and a residual.

  Both programs first form, with the same operations on the same arguments, the per-node sums agg of the features of
  incoming edges' sources and the per-node counts cnt of incoming edges. The kernel program then runs 20 grid points
  over row blocks of 5000 nodes, each computing x + ((agg / max(cnt, 1)) · Wᵀ + b) on its block with the product
  accumulated onto zeros; the reference computes the same expression over all 100000 nodes at once. At the ideal
  values (extended reals, exact operations, a change of float format the identity) both results are, index by
  index, the one function Cert.Layer.out of x, agg, cnt, W and b: the kernel's by reading its body's stored value at
  an index and gluing the 20 blocks (Cert.KernelLayer.run), the reference's by reading its operations one at a time
  (Cert.RefLayer.result_eq). No algebraic law beyond that is used, so the finiteness of the inputs is never opened.
  The idealized kernel is the printed kernel read at the ideal values with nothing rewritten, so there is nothing
  to preserve; each program's frame (it terminates without fault and leaves its arguments unchanged) is the
  generated one, and the reference's is its generated run with the result dropped.
-/
import proofs.«165251_j14078902796421_1_alg».proof.Defs
import proofs.«165251_j14078902796421_1_alg».proof.Proof.Gen.Kernel
import proofs.«165251_j14078902796421_1_alg».proof.Proof.Gen.Kernel.Skeleton
import proofs.«165251_j14078902796421_1_alg».proof.Proof.Gen.Kernel.Launch
import proofs.«165251_j14078902796421_1_alg».proof.Proof.Gen.Kernel.Points
import proofs.«165251_j14078902796421_1_alg».proof.Proof.Gen.Kernel.Frame
import proofs.«165251_j14078902796421_1_alg».proof.Proof.Gen.KernelIdeal
import proofs.«165251_j14078902796421_1_alg».proof.Proof.Gen.KernelIdeal.Skeleton
import proofs.«165251_j14078902796421_1_alg».proof.Proof.Gen.KernelIdeal.Launch
import proofs.«165251_j14078902796421_1_alg».proof.Proof.Gen.KernelIdeal.Points
import proofs.«165251_j14078902796421_1_alg».proof.Proof.Gen.KernelIdeal.Frame
import proofs.«165251_j14078902796421_1_alg».proof.Proof.Gen.ReferenceIdeal
import proofs.«165251_j14078902796421_1_alg».proof.Proof.Gen.Pre_finite_inputs
import proofs.«165251_j14078902796421_1_alg».proof.Proof.Gen.KernelIdeal.Value
import proofs.«165251_j14078902796421_1_alg».proof.Proof.Gen.ReferenceIdeal.Run
import proofs.«165251_j14078902796421_1_alg».proof.Proof.Gen.ReferenceIdeal.Read
import proofs.«165251_j14078902796421_1_alg».proof.Proof.Blocks
import proofs.«165251_j14078902796421_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Run from memories that agree on the arguments, both programs end with the result array at the layer's value of
    the kernel program's arguments. -/
theorem algebraic : Cert.algebraic_KernelIdeal_ReferenceIdeal := by
  intro m ρ m' ρ' _ hagree
  refine ⟨fun c => Cert.KernelLayer.result m c, Cert.KernelLayer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.RefLayer.result_eq,
    (hagree c).1, (hagree c).2.1, (hagree c).2.2.1, (hagree c).2.2.2]
  show _ = Cert.Layer.out _ (Cert.KernelLayer.agg m c) (Cert.KernelLayer.cnt m c) _ _
  rw [Cert.KernelLayer.agg_eq, Cert.KernelLayer.cnt_eq]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
